-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩
abbrev S128x64 : Shape := ⟨2, ![128, 64]⟩

abbrev nBuf : Space → Nat
  | .hbm => 64
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S50000x1, .f32⟩
  | .hbm, ⟨34, _⟩ => ⟨S1x128, .f32⟩
  | .hbm, ⟨35, _⟩ => ⟨S50000x128, .f32⟩
  | .hbm, ⟨36, _⟩ => ⟨S1x800000, .i32⟩
  | .hbm, ⟨37, _⟩ => ⟨S800000, .i32⟩
  | .hbm, ⟨38, _⟩ => ⟨S1x800000, .i32⟩
  | .hbm, ⟨39, _⟩ => ⟨S800000, .i32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S_, .f32⟩
  | .hbm, ⟨54, _⟩ => ⟨S800000, .f32⟩
  | .hbm, ⟨55, _⟩ => ⟨S_, .f32⟩
  | .hbm, ⟨56, _⟩ => ⟨S50000, .f32⟩
  | .hbm, ⟨57, _⟩ => ⟨S800000x1, .i32⟩
  | .hbm, ⟨58, _⟩ => ⟨S50000, .f32⟩
  | .hbm, ⟨59, _⟩ => ⟨S50000x1, .f32⟩
  | .hbm, ⟨60, _⟩ => ⟨S1x128, .f32⟩
  | .hbm, ⟨61, _⟩ => ⟨S50000x128, .f32⟩
  | .hbm, ⟨62, _⟩ => ⟨S1x64, .f32⟩
  | .hbm, ⟨63, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S64x128, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S1x800000, .i32⟩
  | .hbm, ⟨51, _⟩ => ⟨S800000, .i32⟩
  | .hbm, ⟨52, _⟩ => ⟨S1x800000, .i32⟩
  | .hbm, ⟨53, _⟩ => ⟨S800000, .i32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S50000, .f32⟩
  | .hbm, ⟨71, _⟩ => ⟨S800000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S128x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S128x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S128x64, .f32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S50000x64, .f32⟩
  | .hbm, ⟨95, _⟩ => ⟨S_, .f32⟩
  | .hbm, ⟨96, _⟩ => ⟨S50000x64, .f32⟩
  | .hbm, ⟨97, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.WholeRun.lean ====
/-
  The idealized kernel program's run with every buffer named.

  @main is three kernel regions among stretches of host operations. The generated frame gives, at each of the six
  segment boundaries, the contents of every buffer as a fold from the launch memory (`Gen.W0` … `Gen.W6`): a host
  stretch applies its operations, a region leaves its arrays at what its write-backs leave. The frame claim keeps of
  the last boundary only that the arguments are as launched; here the same run is stated with ALL of the last
  boundary: on every core, every buffer that outlives the regions ends holding `Gen.W6` of it. The result buffer's
  contents are then read off that fold (the modules that follow).
-/
import proofs.«179177_j35485019799827_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final state every buffer that
    outlives the regions holds the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run read at one TensorCore buffer that no region scopes. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W6 m ρ c (Proc.devRef .tc b)) :=
  (θ_run defs _ _).mono (fun r h c => h c _ (mem_uc b hb)) (run_all m ρ)

end Cert.KernelIdeal.WholeRun

end
-- ==== Proof.LayerSpec.lean ====
/-
  The mathematics both programs compute, as pure functions on the extended reals.

  One SAGE layer (mean aggregation): for node `p` with neighbour sum `s`, in-degree `c` and own features `x`,
  output feature `q` is
      relu( Σ_k (s_k / max(c, 1)) · Wl[q,k]  +  bl[q]  +  Σ_k x_k · Wr[q,k] ),
  the additions grouped exactly so. The last layer is relu( Σ_k h_k · W[q,k] + b[q] ).
  An array-level layer is the entry function applied row by row: entry (p, q) depends only on row `p` of the
  node arrays, which is what makes a row block of the result a function of the same row block of the inputs.
  The float literals 1.0 and 0.0 stay as their binary words on both sides.
-/
import Idealize.ShloMosaic.PureOps.Ideal
import Idealize.ShloMosaic.Lib.ValueIdx

noncomputable section

namespace Cert.LayerSpec

open Idealize.ShloMosaic Idealize.ShloMosaic.ValueIdx

/-- Entry `q` of one node's SAGE output from the node's row data: the neighbour sum `s`, the in-degree `c`,
    the node's own features `x`, the two weight matrices and the bias entry `b`. -/
def sageEntry (s : Fin 128 → EReal) (c : EReal) (x : Fin 128 → EReal)
    (wl : (⟨2, ![128, 128]⟩ : Shape).Idx → EReal) (b : EReal)
    (wr : (⟨2, ![128, 128]⟩ : Shape).Idx → EReal) (q : Fin 128) : EReal :=
  max (((∑ k : Fin 128, Ideal.div (s k) (max c (Ideal.ofBits .f32 0x3F800000#32)) * wl (ix2 q k)) + b)
        + ∑ k : Fin 128, x k * wr (ix2 q k))
    (Ideal.ofBits .f32 0x00000000#32)

/-- A SAGE layer on `n` nodes: entry (p, q) is `sageEntry` of row `p`. The in-degrees come as a column [n,1] and
    the bias as a row [1,128]. -/
def sage {n : Nat} (S : (⟨2, ![n, 128]⟩ : Shape).Idx → EReal) (C : (⟨2, ![n, 1]⟩ : Shape).Idx → EReal)
    (X : (⟨2, ![n, 128]⟩ : Shape).Idx → EReal) (wl : (⟨2, ![128, 128]⟩ : Shape).Idx → EReal)
    (bl : (⟨2, ![1, 128]⟩ : Shape).Idx → EReal) (wr : (⟨2, ![128, 128]⟩ : Shape).Idx → EReal) :
    (⟨2, ![n, 128]⟩ : Shape).Idx → EReal :=
  fun i => sageEntry (fun k => S (ix2 (i 0) k)) (C (ix2 (i 0) (0 : Fin 1))) (fun k => X (ix2 (i 0) k)) wl
    (bl (ix2 (0 : Fin 1) (i 1))) wr (i 1)

theorem sage_apply {n : Nat} (S : (⟨2, ![n, 128]⟩ : Shape).Idx → EReal) (C : (⟨2, ![n, 1]⟩ : Shape).Idx → EReal)
    (X : (⟨2, ![n, 128]⟩ : Shape).Idx → EReal) (wl : (⟨2, ![128, 128]⟩ : Shape).Idx → EReal)
    (bl : (⟨2, ![1, 128]⟩ : Shape).Idx → EReal) (wr : (⟨2, ![128, 128]⟩ : Shape).Idx → EReal) (p : Fin n) (q : Fin 128) :
    sage S C X wl bl wr (ix2 p q) = sageEntry (fun k => S (ix2 p k)) (C (ix2 p (0 : Fin 1))) (fun k => X (ix2 p k)) wl
      (bl (ix2 (0 : Fin 1) q)) wr q := rfl

/-- Entry `q` of the last layer from one node's hidden row `h`. -/
def outEntry (h : Fin 128 → EReal) (w : (⟨2, ![64, 128]⟩ : Shape).Idx → EReal) (b : EReal) (q : Fin 64) : EReal :=
  max ((∑ k : Fin 128, h k * w (ix2 q k)) + b) (Ideal.ofBits .f32 0x00000000#32)

/-- The last layer on `n` nodes, the bias as a row [1,64]. -/
def out {n : Nat} (H : (⟨2, ![n, 128]⟩ : Shape).Idx → EReal) (w : (⟨2, ![64, 128]⟩ : Shape).Idx → EReal)
    (b : (⟨2, ![1, 64]⟩ : Shape).Idx → EReal) : (⟨2, ![n, 64]⟩ : Shape).Idx → EReal :=
  fun i => outEntry (fun k => H (ix2 (i 0) k)) w (b (ix2 (0 : Fin 1) (i 1))) (i 1)

theorem out_apply {n : Nat} (H : (⟨2, ![n, 128]⟩ : Shape).Idx → EReal) (w : (⟨2, ![64, 128]⟩ : Shape).Idx → EReal)
    (b : (⟨2, ![1, 64]⟩ : Shape).Idx → EReal) (p : Fin n) (q : Fin 64) :
    out H w b (ix2 p q) = outEntry (fun k => H (ix2 p k)) w (b (ix2 (0 : Fin 1) q)) q := rfl

/-- A vector [n] read as a column [n,1]. -/
def col {n : Nat} (v : (⟨1, ![n]⟩ : Shape).Idx → EReal) : (⟨2, ![n, 1]⟩ : Shape).Idx → EReal := fun i => v (ix1 (i 0))

/-- A vector [n] read as a row [1,n]. -/
def row {n : Nat} (v : (⟨1, ![n]⟩ : Shape).Idx → EReal) : (⟨2, ![1, n]⟩ : Shape).Idx → EReal := fun i => v (ix1 (i 1))

theorem col_apply {n : Nat} (v : (⟨1, ![n]⟩ : Shape).Idx → EReal) (p : Fin n) (z : Fin 1) : col v (ix2 p z) = v (ix1 p) := rfl

theorem row_apply {n : Nat} (v : (⟨1, ![n]⟩ : Shape).Idx → EReal) (z : Fin 1) (q : Fin n) : row v (ix2 z q) = v (ix1 q) := rfl

end Cert.LayerSpec

end
-- ==== Proof.LibRows.lean ====
/-
  Rows of a two-axis array read at an index, at the ideal values (floats as extended reals): general
  lemmas, none of them about a particular program.

  * Keepdims columns. A vector [a] viewed as a column [a, 1] reads, at (p, 0), entry p; a column [a, 1]
    spread along the rows of [a, b] reads, at (p, c), the column's entry (p, 0) — as a kernel's
    `vector.shape_cast` / `vector.broadcast` and as the host's `broadcast_in_dim`; likewise a vector [b]
    as one row [1, b], one row spread down [a, b], and a scalar spread over [a].
  * One-axis reductions over the LAST axis of [a, b]. The index that reduces to row p with coordinate k
    put back is (p, k); so a row maximum taken from −∞ is the fold of `max` over the row's b entries and a
    row sum is the sum over them — for a kernel's `vector.multi_reduction` and for the host's
    `stablehlo.reduce` alike.
  * A rows-by-columns product. For dimension numbers that contract the left operand's last axis with the
    right operand's first one, a `tpu.matmul` into a zero accumulator and the host's `dot_general` are, at
    (p, c), the sum over k of lhs (p, k) · rhs (k, c).
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibRows

open Idealize.ShloMosaic Idealize.ShloMosaic.ValueIdx

/-! ## −∞ and a row's maximum -/

/-- The f32 word of −∞, as an extended real. -/
abbrev negInf : EReal := Ideal.ofBits .f32 0xFF800000#32

/-- −∞ is neutral for the maximum. -/
theorem max_negInf (y : EReal) : max negInf y = y := by
  show max (Ideal.ofBits .f32 0xFF800000#32) y = y
  simp [Ideal.ofBits, Ideal.ieee]

/-- The maximum of n extended reals, taken from −∞. -/
def rowMax {n : Nat} (z : Fin n → EReal) : EReal := (Finset.univ : Finset (Fin n)).fold max negInf z

/-! ## Keepdims columns and rows -/

section Layout
variable {α : Type}

/-- A vector [a] cast to a column [a, 1] reads, at (p, u), entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast along the rows of [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: `broadcast_in_dim` of [a] to [a, 1] along axis 0. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's form of the second: `broadcast_in_dim` of [a, 1] to [a, b] along both axes. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A vector [b] as one row [1, b] (`broadcast_in_dim` along axis 1) reads, at (u, c), entry c. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- One row [1, b] spread down [a, b] (`broadcast_in_dim` along both axes) reads, at (p, c), the row at (0, c). -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A scalar spread over [a] reads the scalar everywhere. -/
theorem broadcastInDim_scalar_a_apply {a : ℕ} (x : (⟨0, ![]⟩ : Shape).Idx → α)
    (h : (⟨0, ![]⟩ : Shape).BroadcastsInDim ⟨1, ![a]⟩ ![]) (p : Fin a) :
    broadcastInDim ⟨1, ![a]⟩ ![] h x (ix1 p) = x ix0 :=
  broadcastInDim_apply _ h x (ix1 p) ix0 fun ax => ax.elim0

end Layout

/-! ## Reductions over the last axis of [a, b] -/

/-- Row p with coordinate k put back on the reduced (last) axis is the index (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A kernel's row maximum from −∞: the fold of `max` over the row's entries. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p) = rowMax fun k : Fin b => src (ix2 p k) := by
  refine (Ideal.multiReduction_maximumf_single src 0xFF800000#32 h hφ hacc (ix1 p)).trans ?_
  have hf : (src ∘ h.lift (ix1 p)) = fun k : Fin b => src (ix2 p k) := funext fun k => congrArg src (lift_row h p k)
  exact congrArg (fun f => Finset.fold max negInf f (Finset.univ : Finset (Fin b))) hf

/-- A kernel's row sum: the sum over the row's entries. -/
theorem multiReduction_add_row {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- The host's row maximum from −∞ (`stablehlo.reduce` with a `maximum` body): the same fold. -/
theorem hostReduce_maximumf_row {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x (constant (F := Ideal) (⟨0, ![]⟩ : Shape) .f32 0xFF800000#32) h' hu (ix1 p)
      = rowMax fun k : Fin b => x (ix2 p k) := by
  rw [Host.reduce_eq_fold_single FloatOps.maximumf x _ h' h hu]
  have hf : (x ∘ h.lift (ix1 p)) = fun k : Fin b => x (ix2 p k) := funext fun k => congrArg x (lift_row h p k)
  exact congrArg (fun f => Finset.fold max negInf f (Finset.univ : Finset (Fin b))) hf

/-- The host's row sum from zero (`stablehlo.reduce` with an `add` body): the sum over the row's entries. -/
theorem hostReduceAdd_row {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x (constant (F := Ideal) (⟨0, ![]⟩ : Shape) .f32 0x00000000#32) h' hu (ix1 p)
      = ∑ k : Fin b, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (lift_row h p k)

/-! ## A rows-by-columns product -/

/-- For dimension numbers whose one contraction index runs over K, reading the left operand at (row, k) and the
    right one at (k, column) — stated as the four coordinate facts `hl0 … hr1`, which a program's own record of
    dimension numbers gives —, the sum over the contraction index at (p, c) is the sum over k of
    lhs (p, k) · rhs (k, c). -/
theorem dot_rows_sum {a K b : ℕ} (d : DotDims ⟨2, ![a, K]⟩ ⟨2, ![K, b]⟩ ⟨2, ![a, b]⟩)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (l : (⟨2, ![a, K]⟩ : Shape).Idx → EReal) (r : (⟨2, ![K, b]⟩ : Shape).Idx → EReal) (p : Fin a) (c : Fin b) :
    ∑ q : d.contr.Idx, l (d.lhsIdx (ix2 p c) q) * r (d.rhsIdx (ix2 p c) q) = ∑ k : Fin K, l (ix2 p k) * r (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p c) ((contrEquiv1 d K hr hs).symm k) = ix2 k c := funext fun ax => Fin.ext (by
    match ax with
    | ⟨0, _⟩ => exact (hr0 _ _).trans hk
    | ⟨1, _⟩ => exact hr1 _ _)
  rw [el, er]

/-- So a `tpu.matmul` into the zero accumulator is that sum … -/
theorem matmul_zero_rows {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (prec : Option ContractPrecision) (lhs : FVec Ideal ⟨2, ![a, K]⟩ φ₁) (rhs : FVec Ideal ⟨2, ![K, b]⟩ φ₂) (p : Fin a) (c : Fin b) :
    FloatOps.matmul d prec lhs rhs (constant (⟨2, ![a, b]⟩ : Shape) .f32 0x00000000#32) (ix2 p c)
      = ∑ k : Fin K, lhs (ix2 p k) * rhs (ix2 k c) :=
  (Ideal.matmul_constant_zero_apply d prec lhs rhs (ix2 p c)).trans (dot_rows_sum d hr hs hl0 hl1 hr0 hr1 lhs rhs p c)

/-- … and so is the host's `dot_general`. -/
theorem dotGeneral_rows {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (prec : Option ContractPrecision) (sched : HostSchedule) (lhs : FVec Ideal ⟨2, ![a, K]⟩ φ₁) (rhs : FVec Ideal ⟨2, ![K, b]⟩ φ₂)
    (p : Fin a) (c : Fin b) :
    FloatOps.dotGeneral d prec sched lhs rhs (ix2 p c) = ∑ k : Fin K, lhs (ix2 p k) * rhs (ix2 k c) :=
  (Ideal.dotGeneral_apply d prec sched lhs rhs (ix2 p c)).trans (dot_rows_sum d hr hs hl0 hl1 hr0 hr1 lhs rhs p c)

end Cert.LibRows

end
-- ==== Proof.Entry0.lean ====
/-
  What the first kernel region finds in its input buffers.

  Before the first region @main runs twenty-five host operations on the launch memory: it splits the edge list into
  sources and targets, wraps negative sources around, gathers the source rows of the node features and adds them
  into their target rows (the neighbour sums), adds a one per edge into its target (the in-degrees), and reshapes the
  in-degrees to a column and the first bias to a row. The reference program runs the same operations on the same
  arguments, so each buffer is stated in the reference's own stage functions (the gather and the two scatter-adds are
  never opened: the same function of the same arguments stands on both sides). The in-degree column is the reference's
  in-degree vector read as a column, the bias row its bias read as a row.
-/
import proofs.«179177_j35485019799827_1_alg».proof.Proof.Gen.KernelIdeal.Frame
import proofs.«179177_j35485019799827_1_alg».proof.Proof.Gen.ReferenceIdeal.Read
import proofs.«179177_j35485019799827_1_alg».proof.Proof.LayerSpec
import proofs.«179177_j35485019799827_1_alg».proof.Proof.LibRows
import Idealize.ShloMosaic.Lib.Pipeline.Value
import Idealize.ShloMosaic.Lib.ValueLayout
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v13 val_main_v17)

variable (m : (ℓ : Loc nD τ sig) → Buf (Elt Ideal) ℓ) (ρ : Dev nD → PrngReg)

/-- The neighbour sums of the node features: the reference's first scatter-add stage of the launch arguments. -/
theorem entry0_sums (c : Dev nD) : (V1 m ρ c main_v13 : S50000x128.Idx → EReal)
    = val_main_v13 (F := Ideal) (m ((c : Thread nD τ).loc main_arg0)) (m ((c : Thread nD τ).loc main_arg1)) := by
  show StableHlo.after hostOps0 (W0 m ρ c) (Proc.devRef .tc main_v13) = _
  after_results
  rfl

/-- The in-degrees as a column: the reference's in-degree vector, entry p at (p, 0). -/
theorem entry0_degrees (c : Dev nD) : (V1 m ρ c main_v18 : S50000x1.Idx → EReal)
    = Cert.LayerSpec.col (val_main_v17 (F := Ideal) (m ((c : Thread nD τ).loc main_arg1))) := by
  have e : (V1 m ρ c main_v18 : S50000x1.Idx → EReal)
      = shapeCast S50000x1 (val_main_v17 (F := Ideal) (m ((c : Thread nD τ).loc main_arg1))) shapeCasts_S50000_S50000x1 := by
    show StableHlo.after hostOps0 (W0 m ρ c) (Proc.devRef .tc main_v18) = _
    after_results
    rfl
  rw [e]
  funext i
  obtain ⟨p, u, rfl⟩ : ∃ (p : Fin 50000) (u : Fin 1), i = ix2 p u := ⟨i 0, i 1, eq_ix2 i⟩
  exact Cert.LibRows.shapeCast_a_a1_apply _ _ p u

/-- The first bias as a row: entry q at (0, q). -/
theorem entry0_bias (c : Dev nD) : (V1 m ρ c main_v19 : S1x128.Idx → EReal)
    = Cert.LayerSpec.row (m ((c : Thread nD τ).loc main_arg3)) := by
  have e : (V1 m ρ c main_v19 : S1x128.Idx → EReal)
      = shapeCast S1x128 (m ((c : Thread nD τ).loc main_arg3)) shapeCasts_S128_S1x128 := by
    show StableHlo.after hostOps0 (W0 m ρ c) (Proc.devRef .tc main_v19) = _
    after_results
    rfl
  rw [e]
  funext i
  obtain ⟨u, q, rfl⟩ : ∃ (u : Fin 1) (q : Fin 128), i = ix2 u q := ⟨i 0, i 1, eq_ix2 i⟩
  exact shapeCast_a_1a_apply _ _ u q

/-- The host operations before the first region write none of the arguments. -/
theorem entry0_arg0 (c : Dev nD) : V1 m ρ c main_arg0 = m ((c : Thread nD τ).loc main_arg0) := by
  show StableHlo.after hostOps0 (W0 m ρ c) (Proc.devRef .tc main_arg0) = _
  after_results
theorem entry0_arg2 (c : Dev nD) : V1 m ρ c main_arg2 = m ((c : Thread nD τ).loc main_arg2) := by
  show StableHlo.after hostOps0 (W0 m ρ c) (Proc.devRef .tc main_arg2) = _
  after_results
theorem entry0_arg4 (c : Dev nD) : V1 m ρ c main_arg4 = m ((c : Thread nD τ).loc main_arg4) := by
  show StableHlo.after hostOps0 (W0 m ρ c) (Proc.devRef .tc main_arg4) = _
  after_results

/-- The arguments the first region does not stage pass through it and through the operations before it. -/
theorem exit0_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem exit0_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem exit0_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem exit0_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
theorem exit0_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
theorem exit0_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)

end Cert.KernelIdeal.Fold

end
-- ==== Proof.Entry1.lean ====
/-
  What the second kernel region finds in its input buffers.

  Between the first and the second region @main runs the same twenty-five aggregation operations again, now on the
  first region's output (the first hidden layer) and the edge list, and reshapes the second bias to a row. Given that
  the first region left the reference's first hidden layer in its output buffer, the neighbour sums and in-degrees the
  second region stages are the reference's second scatter-add stages of the launch arguments; the hidden layer itself
  and the second layer's weights reach the region untouched.
-/
import proofs.«179177_j35485019799827_1_alg».proof.Proof.Entry0

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v31 val_main_v45 val_main_v49)

variable (m : (ℓ : Loc nD τ sig) → Buf (Elt Ideal) ℓ) (ρ : Dev nD → PrngReg)

set_option maxHeartbeats 2000000 in
/-- The neighbour sums of the first hidden layer, when the first region left that layer in its output. -/
theorem entry1_sums (c : Dev nD)
    (h : W2 m ρ c (Proc.devRef .tc main_v20) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    (V3 m ρ c main_v34 : S50000x128.Idx → EReal) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v34) = _
  after_results_simp
  rw [h, exit0_arg1]
  all_goals rfl

/-- The in-degrees again, as a column. -/
theorem entry1_degrees (c : Dev nD) : (V3 m ρ c main_v39 : S50000x1.Idx → EReal)
    = Cert.LayerSpec.col (val_main_v49 (F := Ideal) (m ((c : Thread nD τ).loc main_arg1))) := by
  have e : (V3 m ρ c main_v39 : S50000x1.Idx → EReal)
      = shapeCast S50000x1 (val_main_v49 (F := Ideal) (m ((c : Thread nD τ).loc main_arg1))) shapeCasts_S50000_S50000x1 := by
    show StableHlo.after hostOps1 (W2 m ρ c) (Proc.devRef .tc main_v39) = _
    after_results
    rw [exit0_arg1]
    all_goals rfl
  rw [e]
  funext i
  obtain ⟨p, u, rfl⟩ : ∃ (p : Fin 50000) (u : Fin 1), i = ix2 p u := ⟨i 0, i 1, eq_ix2 i⟩
  exact Cert.LibRows.shapeCast_a_a1_apply _ _ p u

/-- The second bias as a row. -/
theorem entry1_bias (c : Dev nD) : (V3 m ρ c main_v40 : S1x128.Idx → EReal)
    = Cert.LayerSpec.row (m ((c : Thread nD τ).loc main_arg6)) := by
  have e : (V3 m ρ c main_v40 : S1x128.Idx → EReal)
      = shapeCast S1x128 (m ((c : Thread nD τ).loc main_arg6)) shapeCasts_S128_S1x128 := by
    show StableHlo.after hostOps1 (W2 m ρ c) (Proc.devRef .tc main_v40) = _
    after_results
    rw [exit0_arg6]
    all_goals rfl
  rw [e]
  funext i
  obtain ⟨u, q, rfl⟩ : ∃ (u : Fin 1) (q : Fin 128), i = ix2 u q := ⟨i 0, i 1, eq_ix2 i⟩
  exact shapeCast_a_1a_apply _ _ u q

/-- The hidden layer reaches the second region as the first left it. -/
theorem entry1_hidden (c : Dev nD) : V3 m ρ c main_v20 = W2 m ρ c (Proc.devRef .tc main_v20) := by
  show StableHlo.after hostOps1 (W2 m ρ c) (Proc.devRef .tc main_v20) = _
  after_results

theorem entry1_arg5 (c : Dev nD) : V3 m ρ c main_arg5 = m ((c : Thread nD τ).loc main_arg5) := by
  show StableHlo.after hostOps1 _ (Proc.devRef .tc main_arg5) = _
  after_results
  exact exit0_arg5 m ρ c
theorem entry1_arg7 (c : Dev nD) : V3 m ρ c main_arg7 = m ((c : Thread nD τ).loc main_arg7) := by
  show StableHlo.after hostOps1 _ (Proc.devRef .tc main_arg7) = _
  after_results
  exact exit0_arg7 m ρ c

/-- The last layer's weight and bias pass through the second region and the operations before it. -/
theorem exit1_arg8 (c : Dev nD) : W4 m ρ c (Proc.devRef .tc main_arg8) = m ((c : Thread nD τ).loc main_arg8) :=
  (W4_of_ne m ρ c main_arg8 (by decide)).trans (by
    show StableHlo.after hostOps1 (W2 m ρ c) (Proc.devRef .tc main_arg8) = _
    after_results
    exact exit0_arg8 m ρ c)
theorem exit1_arg9 (c : Dev nD) : W4 m ρ c (Proc.devRef .tc main_arg9) = m ((c : Thread nD τ).loc main_arg9) :=
  (W4_of_ne m ρ c main_arg9 (by decide)).trans (by
    show StableHlo.after hostOps1 (W2 m ρ c) (Proc.devRef .tc main_arg9) = _
    after_results
    exact exit0_arg9 m ρ c)

/-! ## What the third region finds: the second hidden layer, the last weight, the last bias as a row -/

theorem entry2_hidden (c : Dev nD) : V5 m ρ c main_v41 = W4 m ρ c (Proc.devRef .tc main_v41) := by
  show StableHlo.after hostOps2 (W4 m ρ c) (Proc.devRef .tc main_v41) = _
  after_results

theorem entry2_arg8 (c : Dev nD) : V5 m ρ c main_arg8 = m ((c : Thread nD τ).loc main_arg8) := by
  show StableHlo.after hostOps2 (W4 m ρ c) (Proc.devRef .tc main_arg8) = _
  after_results
  exact exit1_arg8 m ρ c

theorem entry2_bias (c : Dev nD) : (V5 m ρ c main_v42 : S1x64.Idx → EReal)
    = Cert.LayerSpec.row (m ((c : Thread nD τ).loc main_arg9)) := by
  have e : (V5 m ρ c main_v42 : S1x64.Idx → EReal)
      = shapeCast S1x64 (m ((c : Thread nD τ).loc main_arg9)) shapeCasts_S64_S1x64 := by
    show StableHlo.after hostOps2 (W4 m ρ c) (Proc.devRef .tc main_v42) = _
    after_results
    rw [exit1_arg9]
    all_goals rfl
  rw [e]
  funext i
  obtain ⟨u, q, rfl⟩ : ∃ (u : Fin 1) (q : Fin 64), i = ix2 u q := ⟨i 0, i 1, eq_ix2 i⟩
  exact shapeCast_a_1a_apply _ _ u q

end Cert.KernelIdeal.Fold

end
-- ==== Proof.Region0.lean ====
/-
  Region 0 (the first SAGE layer) on its grid of ten points. Point t stages rows 5000 t … 5000 t + 4999 of the
  neighbour sums, the in-degree column and the nodes' own features, and the whole of the two weights and the bias
  row; the body divides the neighbour sums by max(degree, 1) along each row, multiplies by the transposed left
  weight, adds the bias row, adds the own features times the transposed right weight, and takes the maximum with 0;
  the result block goes back to the same rows of the result array. Entry (r, q) of the result depends only on row r
  of the node arrays, so the array after the region is the layer's specification applied to the arrays as the
  region finds them.
-/
import proofs.«179177_j35485019799827_1_alg».proof.Proof.Gen.KernelIdeal.Frame
import proofs.«179177_j35485019799827_1_alg».proof.Proof.LayerSpec
import proofs.«179177_j35485019799827_1_alg».proof.Proof.LibRows
import Idealize.ShloMosaic.Lib.Pipeline.Value
import Idealize.ShloMosaic.Lib.ValueLayout
import Idealize.ShloMosaic.PureOps.Ideal.Laws

noncomputable section

namespace Cert.KernelIdeal.RegionValue
open Cert.KernelIdeal Cert.KernelIdeal.Gen Idealize.ShloMosaic Idealize.ShloMosaic.TcCoe Idealize.SL.Sem
open Idealize.ShloMosaic.Pipeline (Dat)
open Idealize.ShloMosaic.ValueIdx

/-! ## The block matmul's operand indices: the left operand is read at (row, k), the right one at (k, column) -/

theorem dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block matmul into the zero accumulator, read at (p, q): the sum over the contracted axis of
    row p of the left operand times column q of the right one. -/
theorem matmul_zero_apply (x : FVec Ideal S5000x128 .f32) (y : FVec Ideal S128x128 .f32) (p : Fin 5000) (q : Fin 128) :
    matmul dot_S5000x128_S128x128_S5000x128_1_0_0_1_n_n none x y (constant (F := Ideal) S5000x128 .f32 0x00000000#32) (ix2 p q)
      = ∑ k : Fin 128, x (ix2 p k) * y (ix2 k q) :=
  Cert.LibRows.matmul_zero_rows dot_S5000x128_S128x128_S5000x128_1_0_0_1_n_n rfl rfl dot_lhs_0 dot_lhs_1 dot_rhs_0 dot_rhs_1 none x y p q

/-- A transposed weight block at (k, q) is the weight at (q, k). -/
theorem transpose_weight_apply (w : Vec Ideal S128x128 .f32) (k q : Fin 128) :
    (transpose S128x128 [1, 0] w transposes_S128x128_p1_0_S128x128 : FVec Ideal S128x128 .f32) (ix2 k q) = w (ix2 q k) :=
  transpose_apply _ w transposes_S128x128_p1_0_S128x128 (ix2 k q) (ix2 q k) fun c => match c with | ⟨0, _⟩ => rfl | ⟨1, _⟩ => rfl

/-- So a block times a transposed weight, into the zero accumulator, is at (p, q) the sum over the features k of
    the block's row p at k times the weight at (q, k). -/
theorem matmul_transpose_apply (x : FVec Ideal S5000x128 .f32) (w : Vec Ideal S128x128 .f32) (p : Fin 5000) (q : Fin 128) :
    matmul dot_S5000x128_S128x128_S5000x128_1_0_0_1_n_n none x
        (transpose S128x128 [1, 0] w transposes_S128x128_p1_0_S128x128 : FVec Ideal S128x128 .f32)
        (constant (F := Ideal) S5000x128 .f32 0x00000000#32) (ix2 p q)
      = ∑ k : Fin 128, x (ix2 p k) * w (ix2 q k) := by
  rw [matmul_zero_apply]
  refine Finset.sum_congr rfl fun k _ => ?_
  rw [transpose_weight_apply]

/-! ## The body's result at an index -/

/-- The body's result at (p, q) is the layer's entry function of row p of the three node blocks, the two weight
    blocks and the bias entry q: each block matmul is a sum over the 128 features, the degree column and the bias
    row are read where their broadcasts put them, and a transposed weight at (k, q) is the weight at (q, k). -/
theorem pay0_apply (v0 : Vec Ideal S5000x128 .f32) (v2 : Vec Ideal S5000x1 .f32) (v8 : Vec Ideal S128x128 .f32)
    (v11 : Vec Ideal S1x128 .f32) (v15 : Vec Ideal S5000x128 .f32) (v16 : Vec Ideal S128x128 .f32) (p : Fin 5000) (q : Fin 128) :
    k0_pay1 (F := Ideal) v0 v2 v8 v11 v15 v16 (ix2 p q)
      = Cert.LayerSpec.sageEntry (fun k => v0 (ix2 p k)) (v2 (ix2 p (0 : Fin 1))) (fun k => v15 (ix2 p k)) v8
          (v11 (ix2 (0 : Fin 1) q)) v16 q := by
  unfold k0_pay1 Cert.LayerSpec.sageEntry
  simp only [shapeCast_self]
  rw [maximumf_apply, addf_apply, addf_apply, matmul_transpose_apply, matmul_transpose_apply, broadcast_apply,
    broadcastTo_1b_ab_apply]
  simp only [divf_apply, Cert.LibRows.broadcastTo_a1_ab_apply, maximumf_apply, broadcast_apply]
  rfl

variable (V : (c : Dev nD) → (b : Ref sig .tc) → Buf (Elt Ideal) ((c : Thread nD τ).loc b))

/-- The body's loads and its store are at zero offsets. -/
theorem zero_offsets : (![0, 0] : Fin 2 → Nat) = fun _ => 0 := funext fun a => by fin_cases a <;> rfl

/-! ## The blocks the body reads, where they lie in their arrays -/

namespace Layer0

/-- The grid has ten points. -/
theorem lt_ten (t : Fin cfg0.N) : t.val < 10 := by have h : cfg0.N = 10 := N_0; have := t.isLt; omega

/-- The index maps, decided over the grid: at point t the three node arrays and the result are at row
    block t (their one column block), the weights and the bias at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's block of the neighbour sums is row 5000 t + p of the array. -/
theorem sum_block_apply (c : Dev nD) (t : Fin cfg0.N) (p : Fin 5000) (k : Fin 128) (r : Fin 50000)
    (hr : r.val = t.val * 5000 + p.val) :
    (iblk0 (F := Ideal) V c 0 t : Vec Ideal S5000x128 .f32) (ix2 p k) = (V c main_v13 : Vec Ideal S50000x128 .f32) (ix2 r k) := by
  obtain ⟨e0, e1, -⟩ := index_facts t
  unfold iblk0
  rw [View.read_apply]
  show V c main_v13 _ = V c main_v13 _
  congr 1
  funext a; apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row p of point t's block of the in-degree column is row 5000 t + p of the column. -/
theorem degree_block_apply (c : Dev nD) (t : Fin cfg0.N) (p : Fin 5000) (r : Fin 50000)
    (hr : r.val = t.val * 5000 + p.val) :
    (iblk0 (F := Ideal) V c 1 t : Vec Ideal S5000x1 .f32) (ix2 p (0 : Fin 1)) = (V c main_v18 : Vec Ideal S50000x1 .f32) (ix2 r (0 : Fin 1)) := by
  obtain ⟨-, -, e0, e1, -⟩ := index_facts t
  unfold iblk0
  rw [View.read_apply]
  show V c main_v18 _ = V c main_v18 _
  congr 1
  funext a; apply Fin.ext
  match a with
  | ⟨0, _⟩ => show win0_1.index t (0 : Fin 2) * 5000 + 1 * p.val = r.val; rw [e0, hr]; omega
  | ⟨1, _⟩ => show win0_1.index t (1 : Fin 2) * 1 + 1 * 0 = 0; rw [e1]

/-- Row p of point t's block of the nodes' own features is row 5000 t + p of the array. -/
theorem self_block_apply (c : Dev nD) (t : Fin cfg0.N) (p : Fin 5000) (k : Fin 128) (r : Fin 50000)
    (hr : r.val = t.val * 5000 + p.val) :
    (iblk0 (F := Ideal) V c 2 t : Vec Ideal S5000x128 .f32) (ix2 p k) = (V c main_arg0 : Vec Ideal S50000x128 .f32) (ix2 r k) := by
  obtain ⟨-, -, -, -, e0, e1, -⟩ := index_facts t
  unfold iblk0
  rw [View.read_apply]
  show V c main_arg0 _ = V c main_arg0 _
  congr 1
  funext a; apply Fin.ext
  match a with
  | ⟨0, _⟩ => show win0_2.index t (0 : Fin 2) * 5000 + 1 * p.val = r.val; rw [e0, hr]; omega
  | ⟨1, _⟩ => show win0_2.index t (1 : Fin 2) * 128 + 1 * k.val = k.val; rw [e1]; omega

/-- The left weight's one block is the whole weight. -/
theorem left_weight_block (c : Dev nD) (t : Fin cfg0.N) :
    (iblk0 (F := Ideal) V c 3 t : Vec Ideal S128x128 .f32) = (V c main_arg2 : Vec Ideal S128x128 .f32) := by
  obtain ⟨-, -, -, -, -, -, e0, e1, -⟩ := index_facts t
  funext j
  unfold iblk0
  rw [View.read_apply]
  show V c main_arg2 _ = V c main_arg2 _
  congr 1
  funext a; apply Fin.ext
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

/-- The bias row's one block is the whole row. -/
theorem bias_block_apply (c : Dev nD) (t : Fin cfg0.N) (q : Fin 128) :
    (iblk0 (F := Ideal) V c 4 t : Vec Ideal S1x128 .f32) (ix2 (0 : Fin 1) q) = (V c main_v19 : Vec Ideal S1x128 .f32) (ix2 (0 : Fin 1) q) := by
  obtain ⟨-, -, -, -, -, -, -, -, e0, e1, -⟩ := index_facts t
  unfold iblk0
  rw [View.read_apply]
  show V c main_v19 _ = V c main_v19 _
  congr 1
  funext a; apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-- The right weight's one block is the whole weight. -/
theorem right_weight_block (c : Dev nD) (t : Fin cfg0.N) :
    (iblk0 (F := Ideal) V c 5 t : Vec Ideal S128x128 .f32) = (V c main_arg4 : Vec Ideal S128x128 .f32) := by
  obtain ⟨-, -, -, -, -, -, -, -, -, -, e0, e1, -⟩ := index_facts t
  funext j
  unfold iblk0
  rw [View.read_apply]
  show V c main_arg4 _ = V c main_arg4 _
  congr 1
  funext a; apply Fin.ext
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

/-! ## What a point writes back, the cover, and the array after the run -/

/-- What point t writes back is block t of the layer of the arrays as the region finds them: entry (p, q) of the
    body's result is the layer's entry function of row p of the blocks, which is row 5000 t + p of the arrays. -/
theorem flushed_eq (c : Dev nD) (t : Fin cfg0.N) :
    (dat0 (F := Ideal) V c).flushed 6 t = ((cfg0.win 6).blk t).view.read (Elt Ideal)
      (Cert.LayerSpec.sage (n := 50000) (V c main_v13) (V c main_v18) (V c main_arg0) (V c main_arg2) (V c main_v19) (V c main_arg4)) := by
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  obtain ⟨-, -, -, -, -, -, -, -, -, -, -, -, e0, e1⟩ := index_facts t
  have ht := lt_ten t
  funext j
  obtain ⟨p, q, rfl⟩ : ∃ (p : Fin 5000) (q : Fin 128), j = ix2 p q := ⟨j 0, j 1, eq_ix2 j⟩
  have hp := p.isLt
  obtain ⟨r, hr⟩ : ∃ r : Fin 50000, r.val = t.val * 5000 + p.val := ⟨⟨t.val * 5000 + p.val, by omega⟩, rfl⟩
  have he : ((cfg0.win 6).blk t).view.emb (ix2 p q) = ix2 r q := funext fun a => Fin.ext (by
    match a with
    | ⟨0, _⟩ => show win0_6.index t (0 : Fin 2) * 5000 + 1 * p.val = r.val; rw [e0, hr]; omega
    | ⟨1, _⟩ => show win0_6.index t (1 : Fin 2) * 128 + 1 * q.val = q.val; rw [e1]; omega)
  rw [View.read_apply, he]
  show k0_pay1 (F := Ideal) _ _ _ _ _ _ (ix2 p q) = Cert.LayerSpec.sage (n := 50000) _ _ _ _ _ _ (ix2 r q)
  rw [pay0_apply, Cert.LayerSpec.sage_apply, left_weight_block, right_weight_block, bias_block_apply,
    degree_block_apply V c t p r hr]
  simp only [sum_block_apply V c t p _ r hr, self_block_apply V c t p _ r hr]

/-- An index of the array is in point t's block iff its row is one of rows 5000 t … 5000 t + 4999. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- Every row r is in point r / 5000's block, and every point writes back. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by omega⟩
  have htv : t.val = (i 0).val / 5000 := rfl
  obtain ⟨-, -, -, -, -, -, -, -, -, -, -, -, e0, e1⟩ := index_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e0, htv]; omega
  | ⟨1, _⟩ => show win0_6.index t (1 : Fin 2) * 128 ≤ (i 1).val ∧ (i 1).val < win0_6.index t (1 : Fin 2) * 128 + 128; rw [e1]; omega

end Layer0

/-- The result array after the region: the layer of the arrays as the region finds them. -/
theorem final0 (c : Dev nD) :
    (dat0 (F := Ideal) V c).arrAt 6 cfg0.N
      = Cert.LayerSpec.sage (n := 50000) (V c main_v13) (V c main_v18) (V c main_arg0) (V c main_arg2) (V c main_v19) (V c main_arg4) :=
  (dat0 V c).arrAt_eq_of_cover 6 _ (fun t _ => Layer0.flushed_eq V c t) Layer0.cover

end Cert.KernelIdeal.RegionValue
end
-- ==== Proof.Region1.lean ====
/-
  Region 1 (the second SAGE layer) on its grid of ten points: the same schedule and the same body as the first
  layer's, on the second layer's neighbour sums, in-degree column, weights and bias row, the nodes' own features being
  the first layer's result. Point t stages rows 5000 t … 5000 t + 4999 of the three node arrays and the whole of the
  weights and the bias row; entry (r, q) of what it writes back depends only on row r of the node arrays, so the
  array after the region is the layer's specification applied to the arrays as the region finds them.
-/
import proofs.«179177_j35485019799827_1_alg».proof.Proof.Region0

noncomputable section

namespace Cert.KernelIdeal.RegionValue
open Cert.KernelIdeal Cert.KernelIdeal.Gen Idealize.ShloMosaic Idealize.ShloMosaic.TcCoe Idealize.SL.Sem
open Idealize.ShloMosaic.Pipeline (Dat)
open Idealize.ShloMosaic.ValueIdx

/-! ## The body's result at an index -/

/-- The body's result at (p, q) is the layer's entry function of row p of the three node blocks, the two weight
    blocks and the bias entry q: each block matmul is a sum over the 128 features, the degree column and the bias
    row are read where their broadcasts put them, and a transposed weight at (k, q) is the weight at (q, k). -/
theorem pay1_apply (v0 : Vec Ideal S5000x128 .f32) (v2 : Vec Ideal S5000x1 .f32) (v8 : Vec Ideal S128x128 .f32)
    (v11 : Vec Ideal S1x128 .f32) (v15 : Vec Ideal S5000x128 .f32) (v17 : Vec Ideal S128x128 .f32) (p : Fin 5000) (q : Fin 128) :
    k1_pay1 (F := Ideal) v0 v2 v8 v11 v15 v17 (ix2 p q)
      = Cert.LayerSpec.sageEntry (fun k => v0 (ix2 p k)) (v2 (ix2 p (0 : Fin 1))) (fun k => v15 (ix2 p k)) v8
          (v11 (ix2 (0 : Fin 1) q)) v17 q := by
  unfold k1_pay1 Cert.LayerSpec.sageEntry
  simp only [shapeCast_self]
  rw [maximumf_apply, addf_apply, addf_apply, matmul_transpose_apply, matmul_transpose_apply, broadcast_apply,
    broadcastTo_1b_ab_apply]
  simp only [divf_apply, Cert.LibRows.broadcastTo_a1_ab_apply, maximumf_apply, broadcast_apply]
  rfl

variable (V : (c : Dev nD) → (b : Ref sig .tc) → Buf (Elt Ideal) ((c : Thread nD τ).loc b))

/-! ## The blocks the body reads, where they lie in their arrays -/

namespace Layer1

/-- The grid has ten points. -/
theorem lt_ten (t : Fin cfg1.N) : t.val < 10 := by have h : cfg1.N = 10 := N_1; have := t.isLt; omega

/-- The index maps, decided over the grid: at point t the three node arrays and the result are at row
    block t (their one column block), the weights and the bias at their one block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block of the neighbour sums is row 5000 t + p of the array. -/
theorem sum_block_apply (c : Dev nD) (t : Fin cfg1.N) (p : Fin 5000) (k : Fin 128) (r : Fin 50000)
    (hr : r.val = t.val * 5000 + p.val) :
    (iblk1 (F := Ideal) V c 0 t : Vec Ideal S5000x128 .f32) (ix2 p k) = (V c main_v34 : Vec Ideal S50000x128 .f32) (ix2 r k) := by
  obtain ⟨e0, e1, -⟩ := index_facts t
  unfold iblk1
  rw [View.read_apply]
  show V c main_v34 _ = V c main_v34 _
  congr 1
  funext a; apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of point t's block of the in-degree column is row 5000 t + p of the column. -/
theorem degree_block_apply (c : Dev nD) (t : Fin cfg1.N) (p : Fin 5000) (r : Fin 50000)
    (hr : r.val = t.val * 5000 + p.val) :
    (iblk1 (F := Ideal) V c 1 t : Vec Ideal S5000x1 .f32) (ix2 p (0 : Fin 1)) = (V c main_v39 : Vec Ideal S50000x1 .f32) (ix2 r (0 : Fin 1)) := by
  obtain ⟨-, -, e0, e1, -⟩ := index_facts t
  unfold iblk1
  rw [View.read_apply]
  show V c main_v39 _ = V c main_v39 _
  congr 1
  funext a; apply Fin.ext
  match a with
  | ⟨0, _⟩ => show win1_1.index t (0 : Fin 2) * 5000 + 1 * p.val = r.val; rw [e0, hr]; omega
  | ⟨1, _⟩ => show win1_1.index t (1 : Fin 2) * 1 + 1 * 0 = 0; rw [e1]

/-- Row p of point t's block of the nodes' own features is row 5000 t + p of the array. -/
theorem self_block_apply (c : Dev nD) (t : Fin cfg1.N) (p : Fin 5000) (k : Fin 128) (r : Fin 50000)
    (hr : r.val = t.val * 5000 + p.val) :
    (iblk1 (F := Ideal) V c 2 t : Vec Ideal S5000x128 .f32) (ix2 p k) = (V c main_v20 : Vec Ideal S50000x128 .f32) (ix2 r k) := by
  obtain ⟨-, -, -, -, e0, e1, -⟩ := index_facts t
  unfold iblk1
  rw [View.read_apply]
  show V c main_v20 _ = V c main_v20 _
  congr 1
  funext a; apply Fin.ext
  match a with
  | ⟨0, _⟩ => show win1_2.index t (0 : Fin 2) * 5000 + 1 * p.val = r.val; rw [e0, hr]; omega
  | ⟨1, _⟩ => show win1_2.index t (1 : Fin 2) * 128 + 1 * k.val = k.val; rw [e1]; omega

/-- The left weight's one block is the whole weight. -/
theorem left_weight_block (c : Dev nD) (t : Fin cfg1.N) :
    (iblk1 (F := Ideal) V c 3 t : Vec Ideal S128x128 .f32) = (V c main_arg5 : Vec Ideal S128x128 .f32) := by
  obtain ⟨-, -, -, -, -, -, e0, e1, -⟩ := index_facts t
  funext j
  unfold iblk1
  rw [View.read_apply]
  show V c main_arg5 _ = V c main_arg5 _
  congr 1
  funext a; apply Fin.ext
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

/-- The bias row's one block is the whole row. -/
theorem bias_block_apply (c : Dev nD) (t : Fin cfg1.N) (q : Fin 128) :
    (iblk1 (F := Ideal) V c 4 t : Vec Ideal S1x128 .f32) (ix2 (0 : Fin 1) q) = (V c main_v40 : Vec Ideal S1x128 .f32) (ix2 (0 : Fin 1) q) := by
  obtain ⟨-, -, -, -, -, -, -, -, e0, e1, -⟩ := index_facts t
  unfold iblk1
  rw [View.read_apply]
  show V c main_v40 _ = V c main_v40 _
  congr 1
  funext a; apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- The right weight's one block is the whole weight. -/
theorem right_weight_block (c : Dev nD) (t : Fin cfg1.N) :
    (iblk1 (F := Ideal) V c 5 t : Vec Ideal S128x128 .f32) = (V c main_arg7 : Vec Ideal S128x128 .f32) := by
  obtain ⟨-, -, -, -, -, -, -, -, -, -, e0, e1, -⟩ := index_facts t
  funext j
  unfold iblk1
  rw [View.read_apply]
  show V c main_arg7 _ = V c main_arg7 _
  congr 1
  funext a; apply Fin.ext
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

/-! ## What a point writes back, the cover, and the array after the run -/

/-- What point t writes back is block t of the layer of the arrays as the region finds them: entry (p, q) of the
    body's result is the layer's entry function of row p of the blocks, which is row 5000 t + p of the arrays. -/
theorem flushed_eq (c : Dev nD) (t : Fin cfg1.N) :
    (dat1 (F := Ideal) V c).flushed 6 t = ((cfg1.win 6).blk t).view.read (Elt Ideal)
      (Cert.LayerSpec.sage (n := 50000) (V c main_v34) (V c main_v39) (V c main_v20) (V c main_arg5) (V c main_v40) (V c main_arg7)) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  obtain ⟨-, -, -, -, -, -, -, -, -, -, -, -, e0, e1⟩ := index_facts t
  have ht := lt_ten t
  funext j
  obtain ⟨p, q, rfl⟩ : ∃ (p : Fin 5000) (q : Fin 128), j = ix2 p q := ⟨j 0, j 1, eq_ix2 j⟩
  have hp := p.isLt
  obtain ⟨r, hr⟩ : ∃ r : Fin 50000, r.val = t.val * 5000 + p.val := ⟨⟨t.val * 5000 + p.val, by omega⟩, rfl⟩
  have he : ((cfg1.win 6).blk t).view.emb (ix2 p q) = ix2 r q := funext fun a => Fin.ext (by
    match a with
    | ⟨0, _⟩ => show win1_6.index t (0 : Fin 2) * 5000 + 1 * p.val = r.val; rw [e0, hr]; omega
    | ⟨1, _⟩ => show win1_6.index t (1 : Fin 2) * 128 + 1 * q.val = q.val; rw [e1]; omega)
  rw [View.read_apply, he]
  show k1_pay1 (F := Ideal) _ _ _ _ _ _ (ix2 p q) = Cert.LayerSpec.sage (n := 50000) _ _ _ _ _ _ (ix2 r q)
  rw [pay1_apply, Cert.LayerSpec.sage_apply, left_weight_block, right_weight_block, bias_block_apply,
    degree_block_apply V c t p r hr]
  simp only [sum_block_apply V c t p _ r hr, self_block_apply V c t p _ r hr]

/-- An index of the array is in point t's block iff its row is one of rows 5000 t … 5000 t + 4999. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v41).slice (win1_6.rect t)).set ↔ _
  rw [View.set_slice_whole, Rect.mem_set_unit]
  exact Iff.rfl

/-- Every row r is in point r / 5000's block, and every point writes back. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by omega⟩
  have htv : t.val = (i 0).val / 5000 := rfl
  obtain ⟨-, -, -, -, -, -, -, -, -, -, -, -, e0, e1⟩ := index_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; rw [e0, htv]; omega
  | ⟨1, _⟩ => show win1_6.index t (1 : Fin 2) * 128 ≤ (i 1).val ∧ (i 1).val < win1_6.index t (1 : Fin 2) * 128 + 128; rw [e1]; omega

end Layer1

/-- The result array after the region: the layer of the arrays as the region finds them. -/
theorem final1 (c : Dev nD) :
    (dat1 (F := Ideal) V c).arrAt 6 cfg1.N
      = Cert.LayerSpec.sage (n := 50000) (V c main_v34) (V c main_v39) (V c main_v20) (V c main_arg5) (V c main_v40) (V c main_arg7) :=
  (dat1 V c).arrAt_eq_of_cover 6 _ (fun t _ => Layer1.flushed_eq V c t) Layer1.cover

end Cert.KernelIdeal.RegionValue
end
-- ==== Proof.Region2.lean ====
import proofs.«179177_j35485019799827_1_alg».proof.Proof.Gen.KernelIdeal.Frame
import proofs.«179177_j35485019799827_1_alg».proof.Proof.LayerSpec
import Idealize.ShloMosaic.Lib.Pipeline.Value
import Idealize.ShloMosaic.Lib.ValueLayout
import Idealize.ShloMosaic.PureOps.Ideal.Laws

noncomputable section

/-!
  Region 2 of the kernel: the last layer, relu(h · Wᵀ + b), on a grid of ten points.
  Point t stages rows [5000 t, 5000 t + 5000) of the hidden array [50000,128], the whole weight [64,128] and the whole
  bias row [1,64]; its body contracts each staged row with each weight row, adds the bias entry and takes the maximum
  with zero; the result block is written back to rows [5000 t, 5000 t + 5000) of the output array [50000,64].
  Entry (r, q) of the output depends only on row r of the hidden array, so the ten blocks together are the
  array-level last layer.
-/
namespace Cert.KernelIdeal.RegionValue
open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Layer2

/-- Left operand index of the kernel's contraction: row of the result, contraction coordinate. -/
theorem lhs_row (i : S5000x64.Idx) (r : dot_S5000x128_S128x64_S5000x64_1_0_0_1_n_n.contr.Idx) :
    (dot_S5000x128_S128x64_S5000x64_1_0_0_1_n_n.lhsIdx i r 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- Right operand index of the kernel's contraction: contraction coordinate, column of the result. -/
theorem rhs_col (i : S5000x64.Idx) (r : dot_S5000x128_S128x64_S5000x64_1_0_0_1_n_n.contr.Idx) :
    (dot_S5000x128_S128x64_S5000x64_1_0_0_1_n_n.rhsIdx i r 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The body's payload at entry (p, q): the last layer's entry function of row p of the staged hidden block,
    the staged weight and the staged bias row's entry q. -/
theorem pay_apply (v0 : Vec Ideal S5000x128 .f32) (v2 : Vec Ideal S64x128 .f32) (v5 : Vec Ideal S1x64 .f32)
    (p : Fin 5000) (q : Fin 64) :
    k2_pay1 (F := Ideal) v0 v2 v5 (ix2 p q)
      = Cert.LayerSpec.outEntry (fun k => v0 (ix2 p k)) v2 (v5 (ix2 (0 : Fin 1) q)) q := by
  unfold k2_pay1 Cert.LayerSpec.outEntry
  dsimp only
  rw [shapeCast_self, shapeCast_self, maximumf_apply, addf_apply, broadcast_apply, broadcastTo_1b_ab_apply]
  simp only [matmul]
  rw [Ideal.matmul_constant_zero_apply,
    ← Equiv.sum_comp (contrEquiv1 dot_S5000x128_S128x64_S5000x64_1_0_0_1_n_n 128 rfl rfl).symm]
  refine congrArg (fun s => max (s + v5 (ix2 (0 : Fin 1) q)) (Ideal.ofBits .f32 0x00000000#32)) ?_
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k :=
    funext fun a => Fin.ext (by
      match a with
      | ⟨0, _⟩ => exact lhs_row _ _
      | ⟨1, _⟩ => exact (dot_S5000x128_S128x64_S5000x64_1_0_0_1_n_n.lhsIdx_val_of_single rfl _ _).trans hk)
  have er : dot_S5000x128_S128x64_S5000x64_1_0_0_1_n_n.rhsIdx (ix2 p q)
      ((contrEquiv1 dot_S5000x128_S128x64_S5000x64_1_0_0_1_n_n 128 rfl rfl).symm k) = ix2 k q :=
    funext fun a => Fin.ext (by
      match a with
      | ⟨0, _⟩ => exact (dot_S5000x128_S128x64_S5000x64_1_0_0_1_n_n.rhsIdx_val_of_single rfl _ _).trans hk
      | ⟨1, _⟩ => exact rhs_col _ _)
  rw [el, er, transpose_ix2_apply]

theorem zero_offsets : (![0, 0] : Fin 2 → Nat) = fun _ => 0 := funext fun a => by fin_cases a <;> rfl

/-- The block index maps, decided once over the ten grid points: the hidden array's window and the output's window
    step one row block per point; the weight's and the bias row's windows stay at block (0, 0). -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point t is rows [5000 t, 5000 t + 5000) of the hidden array. -/
theorem hidden_block (c : Dev nD) (t : Fin cfg2.N) (p : Fin 5000) (k : Fin 128) (r : Fin 50000)
    (hr : r.val = t.val * 5000 + p.val) :
    (iblk2 V c 0 t : Vec Ideal S5000x128 .f32) (ix2 p k) = (V c main_v41 : S50000x128.Idx → Elt Ideal .f32) (ix2 r k) := by
  obtain ⟨e0, e1, -⟩ := block_index t
  unfold iblk2
  rw [View.read_apply]
  show V c main_v41 _ = V c main_v41 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Window 1's block at every point is the whole weight. -/
theorem weight_block (c : Dev nD) (t : Fin cfg2.N) :
    (iblk2 V c 1 t : Vec Ideal S64x128 .f32) = (V c main_arg8 : S64x128.Idx → Elt Ideal .f32) := by
  obtain ⟨-, -, e2, e3, -⟩ := block_index t
  funext j
  unfold iblk2
  rw [View.read_apply]
  show V c main_arg8 _ = V c main_arg8 _
  congr 1
  funext a
  apply Fin.ext
  match a with
  | ⟨0, _⟩ => show win2_1.index t (0 : Fin 2) * 64 + 1 * (j 0).val = (j 0).val; rw [e2]; omega
  | ⟨1, _⟩ => show win2_1.index t (1 : Fin 2) * 128 + 1 * (j 1).val = (j 1).val; rw [e3]; omega

/-- Window 2's block at every point is the whole bias row. -/
theorem bias_block (c : Dev nD) (t : Fin cfg2.N) :
    (iblk2 V c 2 t : Vec Ideal S1x64 .f32) = (V c main_v42 : S1x64.Idx → Elt Ideal .f32) := by
  obtain ⟨-, -, -, -, e4, e5, -⟩ := block_index t
  funext j
  unfold iblk2
  rw [View.read_apply]
  show V c main_v42 _ = V c main_v42 _
  congr 1
  funext a
  apply Fin.ext
  match a with
  | ⟨0, _⟩ => show win2_2.index t (0 : Fin 2) * 1 + 1 * (j 0).val = (j 0).val; rw [e4]; omega
  | ⟨1, _⟩ => show win2_2.index t (1 : Fin 2) * 64 + 1 * (j 1).val = (j 1).val; rw [e5]; omega

/-- What point t writes back is block t of the last layer of the arrays the region finds. -/
theorem flushed_eq (c : Dev nD) (t : Fin cfg2.N) :
    (dat2 (F := Ideal) V c).flushed 3 t
      = ((cfg2.win 3).blk t).view.read (Elt Ideal)
          (Cert.LayerSpec.out (n := 50000) (V c main_v41) (V c main_arg8) (V c main_v42)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S64x128) zero_offsets,
    View.ld_unit_zero (S := S1x64) zero_offsets]
  rw [weight_block, bias_block]
  obtain ⟨-, -, -, -, -, -, e6, e7⟩ := block_index t
  have hN : t.val < 10 := lt_of_lt_of_eq t.isLt N_2
  funext j
  obtain ⟨p, q, rfl⟩ : ∃ (p : Fin 5000) (q : Fin 64), j = ix2 p q := ⟨j 0, j 1, eq_ix2 j⟩
  have hp : p.val < 5000 := p.isLt
  refine (pay_apply _ _ _ p q).trans ?_
  rw [View.read_apply]
  have he : ((cfg2.win 3).blk t).view.emb (ix2 p q)
      = (ix2 (⟨t.val * 5000 + p.val, by omega⟩ : Fin 50000) q : S50000x64.Idx) := by
    funext a
    apply Fin.ext
    match a with
    | ⟨0, _⟩ => show win2_3.index t (0 : Fin 2) * 5000 + 1 * p.val = t.val * 5000 + p.val; rw [e6]; omega
    | ⟨1, _⟩ => show win2_3.index t (1 : Fin 2) * 64 + 1 * q.val = q.val; rw [e7]; omega
  rw [he]
  refine Eq.trans ?_ (Cert.LayerSpec.out_apply _ _ _ _ q).symm
  refine congrArg (fun h => Cert.LayerSpec.outEntry h _ _ q) ?_
  funext k
  exact hidden_block V c t p k _ rfl

/-- A row-column index of the output array is in point t's block iff each coordinate is in the block's range. -/
theorem mem_block (t : Fin cfg2.N) (i : S50000x64.Idx) :
    i ∈ ((cfg2.win 3).blk t).view.set
      ↔ ∀ a : Fin 2, win2_3.index t a * S5000x64.size a ≤ (i a).val
          ∧ (i a).val < win2_3.index t a * S5000x64.size a + S5000x64.size a := by
  show i ∈ ((View.whole main_v43).slice (win2_3.rect t)).set ↔ _
  rw [View.set_slice_whole, Rect.mem_set_unit]
  exact Iff.rfl

/-- Every entry of the output array is written back by some point: row r by point r / 5000. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  have ht : (i 0).val / 5000 < cfg2.N := by omega
  obtain ⟨-, -, -, -, -, -, e6, e7⟩ := block_index ⟨(i 0).val / 5000, ht⟩
  refine ⟨⟨(i 0).val / 5000, ht⟩, flush2_3 _, ?_⟩
  rw [mem_block]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    rw [e7]
    omega

end Layer2

/-- After region 2 the output array is the last layer of the hidden array, the weight and the bias row. -/
theorem final2 (c : Dev nD) :
    (dat2 (F := Ideal) V c).arrAt 3 cfg2.N
      = Cert.LayerSpec.out (n := 50000) (V c main_v41) (V c main_arg8) (V c main_v42) :=
  (dat2 V c).arrAt_eq_of_cover 3 _ (fun t _ => Layer2.flushed_eq V c t) Layer2.cover

end Cert.KernelIdeal.RegionValue
end
-- ==== Proof.RefLayer1.lean ====
/-
  The first SAGE layer of the reference, read as the specification's layer.

  The reference forms mean = summed / max(cnt, 1)[:, None] and then relu(mean · Wlᵀ + bl + x · Wrᵀ). Read at
  entry (p, q): the first product is Σ_k mean[p, k] · Wl[q, k] (the transposed weights read back at the
  untransposed index), mean[p, k] is summed[p, k] divided by the clamped in-degree of node p (the column
  broadcast reads row p whatever the feature k), the bias row broadcast down the nodes reads bl[q], and the
  second product is Σ_k x[p, k] · Wr[q, k]. The additions are grouped as the specification groups them, and
  the neighbour sums and the in-degrees stay whole arrays applied at an index.
-/
import proofs.«179177_j35485019799827_1_alg».proof.Proof.Gen.ReferenceIdeal.Read
import proofs.«179177_j35485019799827_1_alg».proof.Proof.LayerSpec

noncomputable section

namespace Cert.ReferenceIdeal.RefLayers
open Cert.ReferenceIdeal Cert.ReferenceIdeal.Gen Cert.ReferenceIdeal.Read Idealize.ShloMosaic Idealize.ShloMosaic.TcCoe Idealize.SL.Sem
open Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- One term of the aggregated product: row `p` of the neighbour sum divided by the clamped in-degree of node `p`,
    times entry (q, k) of the left weights (the transposed operand read back at the untransposed index). -/
theorem term_agg1 (p : Fin 50000) (q k : Fin 128) :
    val_main_v22 (F := Ideal) x0 x1 (lidx_main_v24 (ix2 p q) k) * val_main_v23 (F := Ideal) x2 (ridx_main_v24 (ix2 p q) k)
      = Ideal.div (val_main_v13 (F := Ideal) x0 x1 (ix2 p k))
          (max (val_main_v17 (F := Ideal) x1 (ix1 p)) (Ideal.ofBits .f32 0x3F800000#32)) * x2 (ix2 q k) := by
  rw [val_main_v22_apply, val_main_v23_apply, val_main_v21_apply, val_main_v20_apply, val_main_v19_apply,
    val_main_v18_apply, val_main_cst_3_apply]
  generalize val_main_v13 (F := Ideal) x0 x1 = S
  generalize val_main_v17 (F := Ideal) x1 = C
  have e1 : lidx_main_v24 (ix2 p q) k = ix2 p k :=
    funext fun a => Fin.ext (by match a with | ⟨0, _⟩ => rfl | ⟨1, _⟩ => rfl)
  have e2 : idx_main_v20 (idx_main_v21 (lidx_main_v24 (ix2 p q) k)) = ix1 p :=
    funext fun a => Fin.ext (by match a with | ⟨0, _⟩ => rfl)
  have e3 : idx_main_v23 (ridx_main_v24 (ix2 p q) k) = ix2 q k :=
    funext fun a => Fin.ext (by match a with | ⟨0, _⟩ => rfl | ⟨1, _⟩ => rfl)
  rw [e1, e2, e3, Ideal.hostDivf_def, Ideal.maximumf_def, Ideal.ofBits_def]

/-- One term of the self product: entry (p, k) of the node features times entry (q, k) of the right weights. -/
theorem term_self1 (p : Fin 50000) (q k : Fin 128) :
    x0 (lidx_main_v29 (ix2 p q) k) * val_main_v28 (F := Ideal) x4 (ridx_main_v29 (ix2 p q) k)
      = x0 (ix2 p k) * x4 (ix2 q k) := by
  rw [val_main_v28_apply]
  have e1 : lidx_main_v29 (ix2 p q) k = ix2 p k :=
    funext fun a => Fin.ext (by match a with | ⟨0, _⟩ => rfl | ⟨1, _⟩ => rfl)
  have e3 : idx_main_v28 (ridx_main_v29 (ix2 p q) k) = ix2 q k :=
    funext fun a => Fin.ext (by match a with | ⟨0, _⟩ => rfl | ⟨1, _⟩ => rfl)
  rw [e1, e3]

/-- The bias broadcast down the rows reads entry `q` of the bias vector. -/
theorem bias1 (p : Fin 50000) (q : Fin 128) :
    x3 (idx_main_v25 (idx_main_v26 (ix2 p q))) = x3 (ix1 q) :=
  congrArg x3 (funext fun a => Fin.ext (by match a with | ⟨0, _⟩ => rfl))

/-- The first layer of the reference is the specification's layer on the neighbour sums and in-degrees. -/
theorem layer1 : val_main_v31 (F := Ideal) x0 x1 x2 x3 x4
    = Cert.LayerSpec.sage (n := 50000) (val_main_v13 (F := Ideal) x0 x1) (Cert.LayerSpec.col (val_main_v17 (F := Ideal) x1)) x0 x2 (Cert.LayerSpec.row x3) x4 := by
  funext i
  obtain ⟨p, q, rfl⟩ : ∃ (p : Fin 50000) (q : Fin 128), i = ix2 p q := ⟨i 0, i 1, eq_ix2 i⟩
  rw [Cert.LayerSpec.sage_apply]
  unfold Cert.LayerSpec.sageEntry
  rw [Cert.LayerSpec.col_apply, Cert.LayerSpec.row_apply]
  rw [val_main_v31_apply, val_main_v30_apply, val_main_v27_apply, val_main_v24_apply, val_main_v29_apply,
    val_main_v26_apply, val_main_v25_apply, val_main_call0_v0_apply, val_main_call0_cst_apply]
  rw [Finset.sum_congr rfl (fun k _ => term_agg1 x0 x1 x2 p q k),
    Finset.sum_congr rfl (fun k _ => term_self1 x0 x4 p q k), bias1 x3 p q,
    Ideal.maximumf_def, Ideal.addf_def, Ideal.addf_def, Ideal.ofBits_def]

end Cert.ReferenceIdeal.RefLayers
end
-- ==== Proof.RefLayer2.lean ====
/-
  The second SAGE layer of the reference, read as the specification's layer.

  The same reading as the first layer, with the first layer's output h in the place of the node features:
  entry (p, q) is relu( Σ_k (summed[p, k] / max(cnt[p], 1)) · Wl[q, k] + bl[q] + Σ_k h[p, k] · Wr[q, k] ), the
  transposed weights read back at the untransposed index, the column of clamped in-degrees read at row p
  whatever the feature, the bias row read at q whatever the node. The first layer's output, its neighbour
  sums and the in-degrees stay whole arrays applied at an index.
-/
import proofs.«179177_j35485019799827_1_alg».proof.Proof.Gen.ReferenceIdeal.Read
import proofs.«179177_j35485019799827_1_alg».proof.Proof.LayerSpec

noncomputable section

namespace Cert.ReferenceIdeal.RefLayers
open Cert.ReferenceIdeal Cert.ReferenceIdeal.Gen Cert.ReferenceIdeal.Read Idealize.ShloMosaic Idealize.ShloMosaic.TcCoe Idealize.SL.Sem
open Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- One term of the aggregated product: row `p` of the neighbour sum divided by the clamped in-degree of node `p`,
    times entry (q, k) of the left weights (the transposed operand read back at the untransposed index). -/
theorem term_agg2 (p : Fin 50000) (q k : Fin 128) :
    val_main_v54 (F := Ideal) x0 x1 x2 x3 x4 (lidx_main_v56 (ix2 p q) k) * val_main_v55 (F := Ideal) x5 (ridx_main_v56 (ix2 p q) k)
      = Ideal.div (val_main_v45 (F := Ideal) x0 x1 x2 x3 x4 (ix2 p k))
          (max (val_main_v49 (F := Ideal) x1 (ix1 p)) (Ideal.ofBits .f32 0x3F800000#32)) * x5 (ix2 q k) := by
  rw [val_main_v54_apply, val_main_v55_apply, val_main_v53_apply, val_main_v52_apply, val_main_v51_apply,
    val_main_v50_apply, val_main_cst_9_apply]
  generalize val_main_v45 (F := Ideal) x0 x1 x2 x3 x4 = S
  generalize val_main_v49 (F := Ideal) x1 = C
  have e1 : lidx_main_v56 (ix2 p q) k = ix2 p k :=
    funext fun a => Fin.ext (by match a with | ⟨0, _⟩ => rfl | ⟨1, _⟩ => rfl)
  have e2 : idx_main_v52 (idx_main_v53 (lidx_main_v56 (ix2 p q) k)) = ix1 p :=
    funext fun a => Fin.ext (by match a with | ⟨0, _⟩ => rfl)
  have e3 : idx_main_v55 (ridx_main_v56 (ix2 p q) k) = ix2 q k :=
    funext fun a => Fin.ext (by match a with | ⟨0, _⟩ => rfl | ⟨1, _⟩ => rfl)
  rw [e1, e2, e3, Ideal.hostDivf_def, Ideal.maximumf_def, Ideal.ofBits_def]

/-- One term of the self product: entry (p, k) of the first layer's output times entry (q, k) of the right weights. -/
theorem term_self2 (p : Fin 50000) (q k : Fin 128) :
    val_main_v31 (F := Ideal) x0 x1 x2 x3 x4 (lidx_main_v61 (ix2 p q) k) * val_main_v60 (F := Ideal) x7 (ridx_main_v61 (ix2 p q) k)
      = val_main_v31 (F := Ideal) x0 x1 x2 x3 x4 (ix2 p k) * x7 (ix2 q k) := by
  rw [val_main_v60_apply]
  generalize val_main_v31 (F := Ideal) x0 x1 x2 x3 x4 = H
  have e1 : lidx_main_v61 (ix2 p q) k = ix2 p k :=
    funext fun a => Fin.ext (by match a with | ⟨0, _⟩ => rfl | ⟨1, _⟩ => rfl)
  have e3 : idx_main_v60 (ridx_main_v61 (ix2 p q) k) = ix2 q k :=
    funext fun a => Fin.ext (by match a with | ⟨0, _⟩ => rfl | ⟨1, _⟩ => rfl)
  rw [e1, e3]

/-- The bias broadcast down the rows reads entry `q` of the bias vector. -/
theorem bias2 (p : Fin 50000) (q : Fin 128) :
    x6 (idx_main_v57 (idx_main_v58 (ix2 p q))) = x6 (ix1 q) :=
  congrArg x6 (funext fun a => Fin.ext (by match a with | ⟨0, _⟩ => rfl))

/-- The second layer of the reference is the specification's layer on the first layer's output, its neighbour
    sums and the in-degrees. -/
theorem layer2 : val_main_v63 (F := Ideal) x0 x1 x2 x3 x4 x5 x6 x7
    = Cert.LayerSpec.sage (n := 50000) (val_main_v45 (F := Ideal) x0 x1 x2 x3 x4) (Cert.LayerSpec.col (val_main_v49 (F := Ideal) x1)) (val_main_v31 (F := Ideal) x0 x1 x2 x3 x4) x5 (Cert.LayerSpec.row x6) x7 := by
  funext i
  obtain ⟨p, q, rfl⟩ : ∃ (p : Fin 50000) (q : Fin 128), i = ix2 p q := ⟨i 0, i 1, eq_ix2 i⟩
  rw [Cert.LayerSpec.sage_apply]
  unfold Cert.LayerSpec.sageEntry
  rw [Cert.LayerSpec.col_apply, Cert.LayerSpec.row_apply]
  rw [val_main_v63_apply, val_main_v62_apply, val_main_v59_apply, val_main_v56_apply, val_main_v61_apply,
    val_main_v58_apply, val_main_v57_apply, val_main_call1_v0_apply, val_main_call1_cst_apply]
  rw [Finset.sum_congr rfl (fun k _ => term_agg2 x0 x1 x2 x3 x4 x5 p q k),
    Finset.sum_congr rfl (fun k _ => term_self2 x0 x1 x2 x3 x4 x7 p q k), bias2 x6 p q,
    Ideal.maximumf_def, Ideal.addf_def, Ideal.addf_def, Ideal.ofBits_def]

end Cert.ReferenceIdeal.RefLayers
end
-- ==== Proof.RefLayer3.lean ====
import proofs.«179177_j35485019799827_1_alg».proof.Proof.Gen.ReferenceIdeal.Read
import proofs.«179177_j35485019799827_1_alg».proof.Proof.LayerSpec

noncomputable section

/-!
  The reference's last layer: relu(h · Wᵀ + b) written as a transpose of the weight, a contraction over the 128
  hidden features, the bias vector spread to a row and then down the 50000 rows, an addition and a maximum with the
  zero scalar spread over the array. Read at entry (p, q) it is the last layer's entry function of row p of the
  hidden array.
-/
namespace Cert.ReferenceIdeal.RefLayers
open Cert.ReferenceIdeal Cert.ReferenceIdeal.Gen Cert.ReferenceIdeal.Read Idealize.ShloMosaic Idealize.ShloMosaic.TcCoe Idealize.SL.Sem
open Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S64x128, .f32⟩ : BufTy).Contents (Elt Ideal)) (x9 : (⟨S64, .f32⟩ : BufTy).Contents (Elt Ideal))

/-- The reference's output array is the last layer of its second hidden array, the weight and the bias as a row. -/
theorem layer3 : val_main_v69 (F := Ideal) x0 x1 x2 x3 x4 x5 x6 x7 x8 x9
    = Cert.LayerSpec.out (n := 50000) (val_main_v63 (F := Ideal) x0 x1 x2 x3 x4 x5 x6 x7) x8 (Cert.LayerSpec.row x9) := by
  funext i
  obtain ⟨p, q, rfl⟩ : ∃ (p : Fin 50000) (q : Fin 64), i = ix2 p q := ⟨i 0, i 1, eq_ix2 i⟩
  rw [val_main_v69_apply, val_main_v68_apply, val_main_v65_apply, val_main_v67_apply, val_main_v66_apply,
    val_main_call2_v0_apply, val_main_call2_cst_apply, Cert.LayerSpec.out_apply]
  generalize val_main_v63 (F := Ideal) x0 x1 x2 x3 x4 x5 x6 x7 = h
  -- the left factor is read at (p, k), the transposed weight at (k, q), that is the weight at (q, k)
  have e1 : ∀ k : Fin 128, lidx_main_v65 (ix2 p q) k = ix2 p k := fun k =>
    funext fun a => Fin.ext (by match a with | ⟨0, _⟩ => rfl | ⟨1, _⟩ => rfl)
  have e2 : ∀ k : Fin 128, idx_main_v64 (ridx_main_v65 (ix2 p q) k) = ix2 q k := fun k =>
    funext fun a => Fin.ext (by match a with | ⟨0, _⟩ => rfl | ⟨1, _⟩ => rfl)
  -- the bias spread down the rows is read at its entry q
  have e3 : idx_main_v66 (idx_main_v67 (ix2 p q)) = ix1 q :=
    funext fun a => Fin.ext (by match a with | ⟨0, _⟩ => rfl)
  simp only [val_main_v64_apply, e1, e2, e3]
  rfl

end Cert.ReferenceIdeal.RefLayers
end
-- ==== Proof.ResultValue.lean ====
/-
  The result buffer after the run, read off the fold through the three regions.

  The last boundary's contents at the result buffer are the third region's output array; each region's output array
  is its layer (`LayerSpec`) of the buffers it staged (the region modules); what each region staged is known from the
  host stretch before it (`Entry0`, `Entry1`); and each of the reference's three layer stages is the same layer of the
  same operands (the reference-layer modules). Chaining the three regions, the result buffer ends holding the
  reference's result term of the launch arguments.
-/
import proofs.«179177_j35485019799827_1_alg».proof.Proof.Entry1
import proofs.«179177_j35485019799827_1_alg».proof.Proof.Region0
import proofs.«179177_j35485019799827_1_alg».proof.Proof.Region1
import proofs.«179177_j35485019799827_1_alg».proof.Proof.Region2
import proofs.«179177_j35485019799827_1_alg».proof.Proof.RefLayer1
import proofs.«179177_j35485019799827_1_alg».proof.Proof.RefLayer2
import proofs.«179177_j35485019799827_1_alg».proof.Proof.RefLayer3

set_option maxRecDepth 16384

noncomputable section

namespace Cert.KernelIdeal.Fold

open Cert.KernelIdeal Cert.KernelIdeal.Gen Idealize.ShloMosaic Idealize.ShloMosaic.TcCoe Idealize.SL.Sem
open Cert.ReferenceIdeal.Read (val_main_v31 val_main_v63 val_main_v69)

variable (m : (ℓ : Loc nD τ sig) → Buf (Elt Ideal) ℓ) (ρ : Dev nD → PrngReg)

/-- After the first region its output buffer holds the reference's first hidden layer of the launch arguments: the
    region's rows are the SAGE layer of what it staged, what it staged are the reference's aggregation stages, and the
    reference's first hidden layer is that same layer of those stages. -/
theorem hidden1 (c : Dev nD) : W2 m ρ c (Proc.devRef .tc main_v20) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ((Cert.KernelIdeal.RegionValue.final0 (V1 m ρ) c).trans ?_)
  rw [entry0_sums, entry0_degrees, entry0_bias, entry0_arg0, entry0_arg2, entry0_arg4]
  exact (Cert.ReferenceIdeal.RefLayers.layer1 _ _ _ _ _).symm

/-- After the second region its output buffer holds the reference's second hidden layer. -/
theorem hidden2 (c : Dev nD) : W4 m ρ c (Proc.devRef .tc main_v41) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ((Cert.KernelIdeal.RegionValue.final1 (V3 m ρ) c).trans ?_)
  rw [entry1_sums m ρ c (hidden1 m ρ c), entry1_degrees, entry1_hidden, hidden1, entry1_arg5, entry1_bias, entry1_arg7]
  exact (Cert.ReferenceIdeal.RefLayers.layer2 _ _ _ _ _ _ _ _).symm

/-- After the third region the result buffer holds the reference's result term of the launch arguments. -/
theorem result (c : Dev nD) : W6 m ρ c (Proc.devRef .tc main_v43) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 3).trans ((Cert.KernelIdeal.RegionValue.final2 (V5 m ρ) c).trans ?_)
  rw [entry2_hidden, hidden2, entry2_arg8, entry2_bias]
  exact (Cert.ReferenceIdeal.RefLayers.layer3 _ _ _ _ _ _ _ _ _ _).symm

end Cert.KernelIdeal.Fold

end
-- ==== Proof.lean ====
/-
  Two programs for a two-layer GraphSAGE network with a final linear layer, on 50000 nodes and 800000 edges:
  mean aggregation over in-neighbours, then per layer relu((sum / max(degree, 1)) · Wlᵀ + bl + x · Wrᵀ), and at the
  end relu(h · W3ᵀ + b3). They are equal on the extended reals.

  The kernel program leaves the gather and the scatter-adds of the aggregation to the host and computes each layer's
  dense part in a kernel region over ten blocks of 5000 nodes; the reference computes everything on the host. Both
  apply the SAME aggregation operations to the same operands, so those are carried as one function and never opened;
  what remains is that a region's block of 5000 output rows is the layer of the same 5000 rows of its inputs — an output
  entry depends only on its own node's row —, that the ten blocks tile the array, and that a matrix product into a zero
  accumulator and the host's product are the same finite sum over the 128 features. No distributive law is used, only
  the two sides' identical grouping of sums, so finiteness of the inputs is never needed.

  The three frames: the two kernel programs' are the generated frame certificates; the reference's is its generated run
  with the result dropped. The idealization rewrote nothing, so it is preserved trivially. For the equality both runs are
  posted at the same term: the reference's result stage of the arguments.
-/
import proofs.«179177_j35485019799827_1_alg».proof.Defs
import proofs.«179177_j35485019799827_1_alg».proof.Proof.Gen.Kernel
import proofs.«179177_j35485019799827_1_alg».proof.Proof.Gen.Kernel.Frame
import proofs.«179177_j35485019799827_1_alg».proof.Proof.Gen.KernelIdeal
import proofs.«179177_j35485019799827_1_alg».proof.Proof.Gen.KernelIdeal.Frame
import proofs.«179177_j35485019799827_1_alg».proof.Proof.Gen.ReferenceIdeal
import proofs.«179177_j35485019799827_1_alg».proof.Proof.Gen.ReferenceIdeal.Run
import proofs.«179177_j35485019799827_1_alg».proof.Proof.Gen.ReferenceIdeal.Read
import proofs.«179177_j35485019799827_1_alg».proof.Proof.Gen.Pre_finite_inputs
import proofs.«179177_j35485019799827_1_alg».proof.Proof.WholeRun
import proofs.«179177_j35485019799827_1_alg».proof.Proof.ResultValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result stage of the (agreeing) arguments in their result buffers. -/
theorem algebraic : Cert.algebraic_KernelIdeal_ReferenceIdeal := by
  intro m ρ m' ρ' _ hagree
  refine ⟨fun c => Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Gen.mem_uc Cert.KernelIdeal.main_v43 (by decide))).trans (Cert.KernelIdeal.Fold.result m ρ c),
       (h c _ (Cert.KernelIdeal.Gen.mem_uc Cert.KernelIdeal.main_arg0 (by decide))).trans (Cert.KernelIdeal.Gen.W6_main_arg0 m ρ c),
       (h c _ (Cert.KernelIdeal.Gen.mem_uc Cert.KernelIdeal.main_arg1 (by decide))).trans (Cert.KernelIdeal.Gen.W6_main_arg1 m ρ c),
       (h c _ (Cert.KernelIdeal.Gen.mem_uc Cert.KernelIdeal.main_arg2 (by decide))).trans (Cert.KernelIdeal.Gen.W6_main_arg2 m ρ c),
       (h c _ (Cert.KernelIdeal.Gen.mem_uc Cert.KernelIdeal.main_arg3 (by decide))).trans (Cert.KernelIdeal.Gen.W6_main_arg3 m ρ c),
       (h c _ (Cert.KernelIdeal.Gen.mem_uc Cert.KernelIdeal.main_arg4 (by decide))).trans (Cert.KernelIdeal.Gen.W6_main_arg4 m ρ c),
       (h c _ (Cert.KernelIdeal.Gen.mem_uc Cert.KernelIdeal.main_arg5 (by decide))).trans (Cert.KernelIdeal.Gen.W6_main_arg5 m ρ c),
       (h c _ (Cert.KernelIdeal.Gen.mem_uc Cert.KernelIdeal.main_arg6 (by decide))).trans (Cert.KernelIdeal.Gen.W6_main_arg6 m ρ c),
       (h c _ (Cert.KernelIdeal.Gen.mem_uc Cert.KernelIdeal.main_arg7 (by decide))).trans (Cert.KernelIdeal.Gen.W6_main_arg7 m ρ c),
       (h c _ (Cert.KernelIdeal.Gen.mem_uc Cert.KernelIdeal.main_arg8 (by decide))).trans (Cert.KernelIdeal.Gen.W6_main_arg8 m ρ c),
       (h c _ (Cert.KernelIdeal.Gen.mem_uc Cert.KernelIdeal.main_arg9 (by decide))).trans (Cert.KernelIdeal.Gen.W6_main_arg9 m ρ c)⟩)
      (Cert.KernelIdeal.WholeRun.run_all m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v69_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
